-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x2048x2 : Shape := ⟨3, ![4, 2048, 2]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel

variable [Facts]

def fn {F : FTy → Type} [FloatOps F] (main_arg0 : FVec F S4x2048x512 .f32) (main_arg1 : IVec S4x2048x2 32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  main_v3
-- ==== Kernel.lean ====
abbrev S4x2048x512 : Shape := ⟨3, ![4, 2048, 512]⟩
abbrev S4x2048x2 : Shape := ⟨3, ![4, 2048, 2]⟩
abbrev S4x2048x16x512 : Shape := ⟨4, ![4, 2048, 16, 512]⟩
abbrev S1x256x512 : Shape := ⟨3, ![1, 256, 512]⟩
abbrev S1x256x2 : Shape := ⟨3, ![1, 256, 2]⟩
abbrev S1x256x16x512 : Shape := ⟨4, ![1, 256, 16, 512]⟩
abbrev S1x64x512 : Shape := ⟨3, ![1, 64, 512]⟩
abbrev S1x64x2 : Shape := ⟨3, ![1, 64, 2]⟩
abbrev S1x64x16 : Shape := ⟨3, ![1, 64, 16]⟩
abbrev S1x64x1 : Shape := ⟨3, ![1, 64, 1]⟩
abbrev S1x64x1x512 : Shape := ⟨4, ![1, 64, 1, 512]⟩
abbrev S1x64x16x1 : Shape := ⟨4, ![1, 64, 16, 1]⟩
abbrev S1x64x16x512 : Shape := ⟨4, ![1, 64, 16, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S4x2048x2, .i32⟩
  | .hbm, ⟨2, _⟩ => ⟨S4x2048x16x512, .f32⟩
  | .local _ .vmem, ⟨0, _⟩ => ⟨S1x256x512, .f32⟩
  | .local _ .vmem, ⟨1, _⟩ => ⟨S1x256x512, .f32⟩
  | .local _ .vmem, ⟨2, _⟩ => ⟨S1x256x2, .i32⟩
  | .local _ .vmem, ⟨3, _⟩ => ⟨S1x256x2, .i32⟩
  | .local _ .vmem, ⟨4, _⟩ => ⟨S1x256x16x512, .f32⟩
  | .local _ .vmem, ⟨5, _⟩ => ⟨S1x256x16x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
def k0_mult2 : BitVec 32 :=
  let c64_i32 : BitVec 32 := 64#32
  c64_i32
def k0_mult3 : BitVec 32 :=
  let c128_i32 : BitVec 32 := 128#32
  c128_i32
def k0_mult4 : BitVec 32 :=
  let c192_i32 : BitVec 32 := 192#32
  c192_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x512_S1x64x512_0_0_0 : ∀ a, (![0, 0, 0] : Fin 3 → Nat) a + S1x64x512.size a ≤ S1x256x512.size a
  h_S1x64x512 : 0 < S1x64x512.numel
  inb_S1x256x2_S1x64x2_0_0_0 : ∀ a, (![0, 0, 0] : Fin 3 → Nat) a + S1x64x2.size a ≤ S1x256x2.size a
  h_S1x64x2 : 0 < S1x64x2.numel
  iota_S1x64x16_d2_w32 : S1x64x16.Iotas .tc 32 [2]
  slices_S1x64x2_o0_0_0_S1x64x1 : S1x64x2.Slices ![0, 0, 0] S1x64x1
  broadcasts_S1x64x1_S1x64x16 : S1x64x1.Broadcasts S1x64x16
  slices_S1x64x2_o0_0_1_S1x64x1 : S1x64x2.Slices ![0, 0, 1] S1x64x1
  natLt_1_32 : 1 < 32
  shapeCasts_S1x64x512_S1x64x1x512 : S1x64x512.ShapeCasts S1x64x1x512
  shapeCasts_S1x64x16_S1x64x16x1 : S1x64x16.ShapeCasts S1x64x16x1
  broadcasts_S1x64x1x512_S1x64x16x512 : S1x64x1x512.Broadcasts S1x64x16x512
  broadcasts_S1x64x16x1_S1x64x16x512 : S1x64x16x1.Broadcasts S1x64x16x512
  inb_S1x256x16x512_S1x64x16x512_0_0_0_0 : ∀ a, (![0, 0, 0, 0] : Fin 4 → Nat) a + S1x64x16x512.size a ≤ S1x256x16x512.size a
  h_S1x64x16x512 : 0 < S1x64x16x512.numel
  inb_S1x256x512_S1x64x512_0_64_0 : ∀ a, (![0, 64, 0] : Fin 3 → Nat) a + S1x64x512.size a ≤ S1x256x512.size a
  inb_S1x256x2_S1x64x2_0_64_0 : ∀ a, (![0, 64, 0] : Fin 3 → Nat) a + S1x64x2.size a ≤ S1x256x2.size a
  inb_S1x256x16x512_S1x64x16x512_0_64_0_0 : ∀ a, (![0, 64, 0, 0] : Fin 4 → Nat) a + S1x64x16x512.size a ≤ S1x256x16x512.size a
  inb_S1x256x512_S1x64x512_0_128_0 : ∀ a, (![0, 128, 0] : Fin 3 → Nat) a + S1x64x512.size a ≤ S1x256x512.size a
  inb_S1x256x2_S1x64x2_0_128_0 : ∀ a, (![0, 128, 0] : Fin 3 → Nat) a + S1x64x2.size a ≤ S1x256x2.size a
  inb_S1x256x16x512_S1x64x16x512_0_128_0_0 : ∀ a, (![0, 128, 0, 0] : Fin 4 → Nat) a + S1x64x16x512.size a ≤ S1x256x16x512.size a
  inb_S1x256x512_S1x64x512_0_192_0 : ∀ a, (![0, 192, 0] : Fin 3 → Nat) a + S1x64x512.size a ≤ S1x256x512.size a
  inb_S1x256x2_S1x64x2_0_192_0 : ∀ a, (![0, 192, 0] : Fin 3 → Nat) a + S1x64x2.size a ≤ S1x256x2.size a
  inb_S1x256x16x512_S1x64x16x512_0_192_0_0 : ∀ a, (![0, 192, 0, 0] : Fin 4 → Nat) a + S1x64x16x512.size a ≤ S1x256x16x512.size a
  hrank0 : 0 < grid0.rank
  k0_mult1_dvd : 64 ∣ k0_mult1.toNat
  k0_mult2_dvd : 64 ∣ k0_mult2.toNat
  k0_mult3_dvd : 64 ∣ k0_mult3.toNat
  k0_mult4_dvd : 64 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x2048x512.size a
  hwx0_0 : ∀ i : grid0.Coords, EltTy.bits .f32 = 32 ∨ (Rect.block (s := S4x2048x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2.size a ≤ S4x2048x2.size a
  hwx0_1 : ∀ i : grid0.Coords, EltTy.bits .i32 = 32 ∨ (Rect.block (s := S4x2048x2) S1x256x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x16x512.size a ≤ S4x2048x16x512.size a
  hwx0_2 : ∀ i : grid0.Coords, EltTy.bits .f32 = 32 ∨ (Rect.block (s := S4x2048x16x512) S1x256x16x512.size (cc0_transform_2 i) (hinb0_2 i)).WholeWords (EltTy.packing .f32)

variable [Facts₀]

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S4x2048x2 : Shape := ⟨3, ![4, 2048, 2]⟩
abbrev S4x2048x2x1 : Shape := ⟨4, ![4, 2048, 2, 1]⟩
abbrev S1x1x1x16 : Shape := ⟨4, ![1, 1, 1, 16]⟩
abbrev S4x2048x2x16 : Shape := ⟨4, ![4, 2048, 2, 16]⟩
abbrev S_ : Shape := ⟨0, ![]⟩
abbrev S4x2048x16 : Shape := ⟨3, ![4, 2048, 16]⟩
abbrev S4x2048x1x512 : Shape := ⟨4, ![4, 2048, 1, 512]⟩
abbrev S4x2048x16x1 : Shape := ⟨4, ![4, 2048, 16, 1]⟩
abbrev S4x2048x16x512 : Shape := ⟨4, ![4, 2048, 16, 512]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x2, .i32⟩
  | .hbm, ⟨2, _⟩ => ⟨S4x2048x2x1, .i32⟩
  | .hbm, ⟨3, _⟩ => ⟨S1x1x1x16, .i32⟩
  | .hbm, ⟨4, _⟩ => ⟨S4x2048x2x16, .i32⟩
  | .hbm, ⟨5, _⟩ => ⟨S4x2048x2x16, .i32⟩
  | .hbm, ⟨6, _⟩ => ⟨S4x2048x2x16, .i1⟩
  | .hbm, ⟨7, _⟩ => ⟨S4x2048x2x16, .f32⟩
  | .hbm, ⟨8, _⟩ => ⟨S_, .f32⟩
  | .hbm, ⟨9, _⟩ => ⟨S4x2048x16, .f32⟩
  | .hbm, ⟨10, _⟩ => ⟨S4x2048x1x512, .f32⟩
  | .hbm, ⟨11, _⟩ => ⟨S4x2048x16x1, .f32⟩
  | .hbm, ⟨12, _⟩ => ⟨S4x2048x16x512, .f32⟩
  | .hbm, ⟨13, _⟩ => ⟨S4x2048x16x512, .f32⟩
  | .hbm, ⟨14, _⟩ => ⟨S4x2048x16x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  bcast_S4x2048x2_S4x2048x2x1_0_1_2 : S4x2048x2.BroadcastsInDim S4x2048x2x1 (![0, 1, 2] : Fin 3 → Fin S4x2048x2x1.rank)
  bcast_S4x2048x2x1_S4x2048x2x16_0_1_2_3 : S4x2048x2x1.BroadcastsInDim S4x2048x2x16 (![0, 1, 2, 3] : Fin 4 → Fin S4x2048x2x16.rank)
  bcast_S1x1x1x16_S4x2048x2x16_0_1_2_3 : S1x1x1x16.BroadcastsInDim S4x2048x2x16 (![0, 1, 2, 3] : Fin 4 → Fin S4x2048x2x16.rank)
  reducesTo_S4x2048x2x16_S4x2048x16_d2 : S4x2048x2x16.ReducesTo [2] S4x2048x16
  h_S_ : 0 < S_.numel
  bcast_S4x2048x512_S4x2048x1x512_0_1_3 : S4x2048x512.BroadcastsInDim S4x2048x1x512 (![0, 1, 3] : Fin 3 → Fin S4x2048x1x512.rank)
  bcast_S4x2048x16_S4x2048x16x1_0_1_2 : S4x2048x16.BroadcastsInDim S4x2048x16x1 (![0, 1, 2] : Fin 3 → Fin S4x2048x16x1.rank)
  bcast_S4x2048x1x512_S4x2048x16x512_0_1_2_3 : S4x2048x1x512.BroadcastsInDim S4x2048x16x512 (![0, 1, 2, 3] : Fin 4 → Fin S4x2048x16x512.rank)
  bcast_S4x2048x16x1_S4x2048x16x512_0_1_2_3 : S4x2048x16x1.BroadcastsInDim S4x2048x16x512 (![0, 1, 2, 3] : Fin 4 → Fin S4x2048x16x512.rank)

variable [Facts₀]

class Facts : Prop extends Facts₀ where

variable [Facts]
-- ==== Proof.OneHotMask.lean ====
/-
  The mask of a two-way scatter, as arithmetic on the extended reals.

  Each token (b, s) carries two partition indices, the 32-bit words w0 and w1; its row of the mask has a 1 at
  partition p exactly when p is one of the two (a repeated index still gives 1) and a 0 elsewhere.  `hot w0 w1 p`
  is that entry, and the result of the whole computation is the input replicated over the 16 partitions and
  multiplied by it: `spec x idx (b, s, p, d) = x (b, s, d) · hot (idx (b, s, 0)) (idx (b, s, 1)) p`.

  Two programs reach the entry by different arithmetic.  One forms the two one-bit comparisons, takes their
  disjunction as a bit, widens the bit to a word and converts the word, read signed, to a number.  The other
  converts each comparison bit to a number first and takes the maximum of the two numbers, starting from −∞.
  Both are the indicator: a bit widened and read signed is 0 or 1 as the bit is (`widened_or`), and the maximum of
  two numbers that are each 0 or 1, from −∞, is 1 exactly when one of them is (`max_of_bits`).  Nothing here needs
  the input to be finite: the same mask entry multiplies the same input entry on both sides.
-/
import Idealize.ShloMosaic.PureOps.Ideal
import Idealize.ShloMosaic.PureOps.Ideal.Laws
import Idealize.ShloMosaic.Lib.ValueIdx
import Idealize.ShloMosaic.Lib.KernelVsHost
import Idealize.ShloMosaic.Lib.Affine

noncomputable section

namespace Cert.ScatterMask

open Idealize.ShloMosaic Idealize.ShloMosaic.ValueIdx

/-- The mask entry at partition `p` of a token whose two indices are the words `w0` and `w1`: 1 when `p` is one
    of them, 0 otherwise. -/
def hot (w0 w1 : BitVec 32) (p : Nat) : EReal :=
  if w0 = BitVec.ofNat 32 p ∨ w1 = BitVec.ofNat 32 p then 1 else 0

/-- The result array as one function of the two argument arrays: entry (b, s, p, d) is the input's entry (b, s, d)
    times the mask entry of token (b, s) at partition p. -/
def spec (x : (⟨3, ![4, 2048, 512]⟩ : Shape).Idx → EReal) (idx : (⟨3, ![4, 2048, 2]⟩ : Shape).Idx → BitVec 32) :
    (⟨4, ![4, 2048, 16, 512]⟩ : Shape).Idx → EReal :=
  fun i => x (ix3 (i 0) (i 1) (i 3)) * hot (idx (ix3 (i 0) (i 1) 0)) (idx (ix3 (i 0) (i 1) 1)) (i 2).val

/-- The disjunction of two bits, widened to a word and read as a signed number, is 1 when one of the bits is set
    and 0 when neither is. -/
theorem widened_or (b0 b1 : BitVec 1) :
    (((((IntOp.ori b0 b1).setWidth 32).toInt : ℝ)) : EReal) = if b0 = 1#1 ∨ b1 = 1#1 then 1 else 0 := by
  rw [toInt_setWidth_bit]
  rcases BitVec.eq_zero_or_eq_one b0 with rfl | rfl <;> rcases BitVec.eq_zero_or_eq_one b1 with rfl | rfl <;>
    simp [IntOp.ori]

/-- The maximum, from −∞, of two bits each read as a number is 1 when one of the bits is set and 0 when neither
    is. -/
theorem max_of_bits (b0 b1 : BitVec 1) :
    max (((b0.toNat : ℝ)) : EReal) (max (((b1.toNat : ℝ)) : EReal) ⊥) = if b0 = 1#1 ∨ b1 = 1#1 then 1 else 0 := by
  rcases BitVec.eq_zero_or_eq_one b0 with rfl | rfl <;> rcases BitVec.eq_zero_or_eq_one b1 with rfl | rfl <;>
    simp

/-- A fold of a commutative, associative operation over the two-element index set is the operation applied to
    the two terms and the starting value. -/
theorem fold_two {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} from by decide,
    Finset.fold_insert (by decide), Finset.fold_singleton]

/-- Equality of two words, as the comparison's bit, does not depend on the order of the operands. -/
theorem cmpi_eq_comm (a b : BitVec 32) : IntOp.cmpi .eq a b = IntOp.cmpi .eq b a := by
  show BitVec.ofBool (a == b) = BitVec.ofBool (b == a)
  exact congrArg BitVec.ofBool BEq.comm

/-- The indicator from the two comparison bits, whichever operand order they were formed in. -/
theorem hot_of_bits (w0 w1 : BitVec 32) (p : Nat) :
    (if IntOp.cmpi .eq w0 (BitVec.ofNat 32 p) = 1#1 ∨ IntOp.cmpi .eq w1 (BitVec.ofNat 32 p) = 1#1 then (1 : EReal) else 0)
      = hot w0 w1 p := by
  unfold hot
  simp only [IntOp.cmpi_eq]

end Cert.ScatterMask

end
-- ==== Proof.SlabEntry.lean ====
/-
  One 64-token slab of the kernel's block, entry by entry.

  The body works on a block of 256 tokens in four slabs of 64.  For a slab it loads the tokens' rows
  `v : [1, 64, 512]` and their index pairs `w : [1, 64, 2]`, and stores a `[1, 64, 16, 512]` value.  Entry
  (a, s, p, d) of that value is `v (a, s, d)` times the mask entry of token s at partition p:

  * the rows are viewed as `[1, 64, 1, 512]` and broadcast over the 16 partitions, so every partition reads the
    row's entry d (`replicated_apply`);
  * column k of the index pairs is sliced out as `[1, 64, 1]` and broadcast over the partitions, so partition p of
    token s reads that token's k-th index (`column0_apply`, `column1_apply`);
  * the partition number is an iota along the partition axis; it is compared with each column, the two bits are
    joined by "or", the bit is widened to a word, converted to a number, viewed as `[1, 64, 16, 1]` and broadcast
    along the row (`flag_apply` reads the converted bit at (a, s, p) from entry (a, s, p, d)).

  The four slabs' payloads are the same expression of their loads.
-/
import proofs.«104164_j87909390614955_2_alg».proof.Proof.Gen.KernelIdeal.Skeleton
import proofs.«104164_j87909390614955_2_alg».proof.Proof.OneHotMask
import Idealize.ShloMosaic.Lib.Pipeline.Value
import Idealize.ShloMosaic.Lib.ValueIdx

noncomputable section

namespace Cert.KernelIdeal.Slab

open Cert.KernelIdeal Cert.KernelIdeal.Gen Idealize.ShloMosaic Idealize.ShloMosaic.ValueIdx Cert.ScatterMask

/-- A slab's rows, viewed with a unit partition axis and broadcast over the 16 partitions, read at (a, s, p, d):
    the row's entry (a, s, d), whatever the partition. -/
theorem replicated_apply (v : FVec Ideal S1x64x512 .f32) (hc : S1x64x512.ShapeCasts S1x64x1x512)
    (hb : S1x64x1x512.Broadcasts S1x64x16x512) (a : Fin 1) (s : Fin 64) (p : Fin 16) (d : Fin 512) :
    broadcastTo S1x64x16x512 (shapeCast S1x64x1x512 v hc) hb (ix4 a s p d) = v (ix3 a s d) := by
  obtain rfl : a = 0 := Subsingleton.elim _ _
  refine (broadcastTo_apply _ hb (ix4 (0 : Fin 1) s p d) (ix4 (0 : Fin 1) s (0 : Fin 1) d) (fun ax => ?_)).trans ?_
  · match ax with
    | ⟨0, _⟩ => rfl
    | ⟨1, _⟩ => rfl
    | ⟨2, _⟩ => rfl
    | ⟨3, _⟩ => rfl
  · refine shapeCast_apply v hc (ix4 (0 : Fin 1) s (0 : Fin 1) d) (ix3 (0 : Fin 1) s d) ?_
    rw [Shape.rowMajor_val_three, Shape.rowMajor_val_four]
    show ((0 : Nat) * 64 + s.val) * 512 + d.val = (((0 : Nat) * 64 + s.val) * 1 + 0) * 512 + d.val
    omega

/-- Column 0 of a slab's index pairs, broadcast over the partitions, read at (a, s, p): token s's first index. -/
theorem column0_apply (w : IVec S1x64x2 32) (hs : S1x64x2.Slices ![0, 0, 0] S1x64x1) (hb : S1x64x1.Broadcasts S1x64x16)
    (a : Fin 1) (s : Fin 64) (p : Fin 16) :
    broadcastTo S1x64x16 (extractStridedSlice S1x64x1 ![0, 0, 0] w hs) hb (ix3 a s p) = w (ix3 a s (0 : Fin 2)) := by
  obtain rfl : a = 0 := Subsingleton.elim _ _
  refine (broadcastTo_apply _ hb (ix3 (0 : Fin 1) s p) (ix3 (0 : Fin 1) s (0 : Fin 1)) (fun ax => ?_)).trans ?_
  · match ax with
    | ⟨0, _⟩ => rfl
    | ⟨1, _⟩ => rfl
    | ⟨2, _⟩ => rfl
  · refine extractStridedSlice_apply _ w hs (ix3 (0 : Fin 1) s (0 : Fin 1)) (ix3 (0 : Fin 1) s (0 : Fin 2)) (fun ax => ?_)
    match ax with
    | ⟨0, _⟩ => rfl
    | ⟨1, _⟩ => show s.val = 0 + s.val; omega
    | ⟨2, _⟩ => rfl

/-- Column 1 of a slab's index pairs, broadcast over the partitions, read at (a, s, p): token s's second index. -/
theorem column1_apply (w : IVec S1x64x2 32) (hs : S1x64x2.Slices ![0, 0, 1] S1x64x1) (hb : S1x64x1.Broadcasts S1x64x16)
    (a : Fin 1) (s : Fin 64) (p : Fin 16) :
    broadcastTo S1x64x16 (extractStridedSlice S1x64x1 ![0, 0, 1] w hs) hb (ix3 a s p) = w (ix3 a s (1 : Fin 2)) := by
  obtain rfl : a = 0 := Subsingleton.elim _ _
  refine (broadcastTo_apply _ hb (ix3 (0 : Fin 1) s p) (ix3 (0 : Fin 1) s (0 : Fin 1)) (fun ax => ?_)).trans ?_
  · match ax with
    | ⟨0, _⟩ => rfl
    | ⟨1, _⟩ => rfl
    | ⟨2, _⟩ => rfl
  · refine extractStridedSlice_apply _ w hs (ix3 (0 : Fin 1) s (0 : Fin 1)) (ix3 (0 : Fin 1) s (1 : Fin 2)) (fun ax => ?_)
    match ax with
    | ⟨0, _⟩ => rfl
    | ⟨1, _⟩ => show s.val = 0 + s.val; omega
    | ⟨2, _⟩ => rfl

/-- A `[1, 64, 16]` array of bits, widened, converted, viewed with a unit last axis and broadcast along the row,
    read at (a, s, p, d): the bit at (a, s, p), widened to a word and read as a signed number. -/
theorem flag_apply (mk : IVec S1x64x16 1) (hlt : 1 < 32) (hc : S1x64x16.ShapeCasts S1x64x16x1)
    (hb : S1x64x16x1.Broadcasts S1x64x16x512) (a : Fin 1) (s : Fin 64) (p : Fin 16) (d : Fin 512) :
    broadcastTo S1x64x16x512 (shapeCast S1x64x16x1 (sitofp (F := Ideal) .f32 (extui 32 mk hlt)) hc) hb (ix4 a s p d)
      = ((((mk (ix3 a s p)).setWidth 32).toInt : ℝ) : EReal) := by
  obtain rfl : a = 0 := Subsingleton.elim _ _
  refine (broadcastTo_apply _ hb (ix4 (0 : Fin 1) s p d) (ix4 (0 : Fin 1) s p (0 : Fin 1)) (fun ax => ?_)).trans ?_
  · match ax with
    | ⟨0, _⟩ => rfl
    | ⟨1, _⟩ => rfl
    | ⟨2, _⟩ => rfl
    | ⟨3, _⟩ => rfl
  · refine (shapeCast_apply _ hc (ix4 (0 : Fin 1) s p (0 : Fin 1)) (ix3 (0 : Fin 1) s p) ?_).trans rfl
    rw [Shape.rowMajor_val_three, Shape.rowMajor_val_four]
    show ((0 : Nat) * 64 + s.val) * 16 + p.val = (((0 : Nat) * 64 + s.val) * 16 + p.val) * 1 + 0
    omega

/-- THE FIRST SLAB'S PAYLOAD AT AN ENTRY: the row's entry times the token's mask entry at the partition. -/
theorem pay1_apply (v : Vec Ideal S1x64x512 .f32) (w : Vec Ideal S1x64x2 .i32) (a : Fin 1) (s : Fin 64) (p : Fin 16)
    (d : Fin 512) :
    k0_pay1 (F := Ideal) v w (ix4 a s p d) = v (ix3 a s d) * hot (w (ix3 a s (0 : Fin 2))) (w (ix3 a s (1 : Fin 2))) p.val := by
  unfold k0_pay1
  dsimp only
  rw [mulf_apply, replicated_apply, flag_apply]
  simp only [ori, cmpi]
  rw [iota_single_apply, column0_apply, column1_apply, widened_or,
    cmpi_eq_comm _ (w (ix3 a s (0 : Fin 2))), cmpi_eq_comm _ (w (ix3 a s (1 : Fin 2)))]
  exact congrArg (fun r => v (ix3 a s d) * r) (hot_of_bits _ _ _)

/-- The second slab's payload is the same expression of its loads. -/
theorem pay2_apply (v : Vec Ideal S1x64x512 .f32) (w : Vec Ideal S1x64x2 .i32) (a : Fin 1) (s : Fin 64) (p : Fin 16)
    (d : Fin 512) :
    k0_pay2 (F := Ideal) v w (ix4 a s p d) = v (ix3 a s d) * hot (w (ix3 a s (0 : Fin 2))) (w (ix3 a s (1 : Fin 2))) p.val :=
  pay1_apply v w a s p d

/-- The third slab's payload is the same expression of its loads. -/
theorem pay3_apply (v : Vec Ideal S1x64x512 .f32) (w : Vec Ideal S1x64x2 .i32) (a : Fin 1) (s : Fin 64) (p : Fin 16)
    (d : Fin 512) :
    k0_pay3 (F := Ideal) v w (ix4 a s p d) = v (ix3 a s d) * hot (w (ix3 a s (0 : Fin 2))) (w (ix3 a s (1 : Fin 2))) p.val :=
  pay1_apply v w a s p d

/-- The fourth slab's payload is the same expression of its loads. -/
theorem pay4_apply (v : Vec Ideal S1x64x512 .f32) (w : Vec Ideal S1x64x2 .i32) (a : Fin 1) (s : Fin 64) (p : Fin 16)
    (d : Fin 512) :
    k0_pay4 (F := Ideal) v w (ix4 a s p d) = v (ix3 a s d) * hot (w (ix3 a s (0 : Fin 2))) (w (ix3 a s (1 : Fin 2))) p.val :=
  pay1_apply v w a s p d

end Cert.KernelIdeal.Slab

end
-- ==== Proof.BlockToArray.lean ====
/-
  From the kernel's blocks to its result array.

  The grid has 4 × 8 points; point (b, q) works on tokens 256·q … 256·q + 255 of batch b.  Its input blocks are the
  rows `[1, 256, 512]` and index pairs `[1, 256, 2]` of those tokens, its output block the `[1, 256, 16, 512]` part
  of the result for them.  The body fills the output block in four slabs of 64 tokens, each slab the same expression
  of the corresponding 64 rows and index pairs, so the whole block is ONE function of the two input blocks
  (`blockSpec`, `out_eq`): entry (a, r, p, d) is row r's entry d times token r's mask entry at partition p.

  All three index maps send point (b, q) to block (b, q) on the two leading axes and to block 0 on the others
  (`index_facts`), so a block entry's token is the same token of the whole arrays on the input and the output side,
  and what a point writes back is its block of the specification of the whole argument arrays (`flushed_eq`).
  Every result index lies in exactly the block of its batch and of its token's group of 256 (`cover`), so after the
  run the result array is the specification everywhere (`final`, `run`).
-/
import proofs.«104164_j87909390614955_2_alg».proof.Proof.Gen.KernelIdeal.Value
import proofs.«104164_j87909390614955_2_alg».proof.Proof.SlabEntry

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.ScatterMask Cert.KernelIdeal.Slab

/-- What the body leaves in the output block, as one function of the two input blocks: entry (a, r, p, d) is row
    r's entry d times token r's mask entry at partition p. -/
def blockSpec (x0 : Vec Ideal S1x256x512 .f32) (x1 : Vec Ideal S1x256x2 .i32) : S1x256x16x512.Idx → EReal :=
  fun y => x0 (ix3 (y 0) (y 1) (y 3)) * hot (x1 (ix3 (y 0) (y 1) (0 : Fin 2))) (x1 (ix3 (y 0) (y 1) (1 : Fin 2))) (y 2).val

/-- A slab starting at token `o` of the block: a payload that is, entry by entry, the row's entry times the mask
    entry (as each of the four is) agrees with `blockSpec` under the slab's rectangle. -/
theorem slab_piece (pay : Vec Ideal S1x64x512 .f32 → Vec Ideal S1x64x2 .i32 → FVec Ideal S1x64x16x512 .f32)
    (hpay : ∀ (v : Vec Ideal S1x64x512 .f32) (w : Vec Ideal S1x64x2 .i32) (a : Fin 1) (s : Fin 64) (p : Fin 16) (d : Fin 512),
      pay v w (ix4 a s p d) = v (ix3 a s d) * hot (w (ix3 a s (0 : Fin 2))) (w (ix3 a s (1 : Fin 2))) p.val)
    (x0 : Vec Ideal S1x256x512 .f32) (x1 : Vec Ideal S1x256x2 .i32) (o : Nat)
    (inb0 : ∀ a, (![0, o, 0] : Fin 3 → Nat) a + S1x64x512.size a ≤ S1x256x512.size a)
    (inb1 : ∀ a, (![0, o, 0] : Fin 3 → Nat) a + S1x64x2.size a ≤ S1x256x2.size a)
    (inb2 : ∀ a, (![0, o, 0, 0] : Fin 4 → Nat) a + S1x64x16x512.size a ≤ S1x256x16x512.size a)
    (x : S1x64x16x512.Idx) :
    pay (View.ld x0 (Rect.unit (s := S1x256x512) ![0, o, 0] S1x64x512.size inb0))
        (View.ld x1 (Rect.unit (s := S1x256x2) ![0, o, 0] S1x64x2.size inb1)) x
      = blockSpec x0 x1 ((Rect.unit (s := S1x256x16x512) ![0, o, 0, 0] S1x64x16x512.size inb2).emb x) := by
  obtain ⟨a, s, p, d, rfl⟩ : ∃ (a : Fin 1) (s : Fin 64) (p : Fin 16) (d : Fin 512), x = ix4 a s p d :=
    ⟨x 0, x 1, x 2, x 3, eq_ix4 x⟩
  rw [hpay]
  unfold blockSpec
  have hp : (((Rect.unit (s := S1x256x16x512) ![0, o, 0, 0] S1x64x16x512.size inb2).emb (ix4 a s p d)) 2).val = p.val := by
    show 0 + 1 * p.val = p.val
    omega
  rw [hp]
  have eA : (Rect.unit (s := S1x256x512) ![0, o, 0] S1x64x512.size inb0).idx (ix3 a s d)
      = ix3 ((Rect.unit (s := S1x256x16x512) ![0, o, 0, 0] S1x64x16x512.size inb2).emb (ix4 a s p d) 0)
          ((Rect.unit (s := S1x256x16x512) ![0, o, 0, 0] S1x64x16x512.size inb2).emb (ix4 a s p d) 1)
          ((Rect.unit (s := S1x256x16x512) ![0, o, 0, 0] S1x64x16x512.size inb2).emb (ix4 a s p d) 3) := by
    funext ax; apply Fin.ext
    match ax with
    | ⟨0, _⟩ => rfl
    | ⟨1, _⟩ => rfl
    | ⟨2, _⟩ => rfl
  have eB (k : Fin 2) : (Rect.unit (s := S1x256x2) ![0, o, 0] S1x64x2.size inb1).idx (ix3 a s k)
      = ix3 ((Rect.unit (s := S1x256x16x512) ![0, o, 0, 0] S1x64x16x512.size inb2).emb (ix4 a s p d) 0)
          ((Rect.unit (s := S1x256x16x512) ![0, o, 0, 0] S1x64x16x512.size inb2).emb (ix4 a s p d) 1) k := by
    funext ax; apply Fin.ext
    match ax with
    | ⟨0, _⟩ => rfl
    | ⟨1, _⟩ => rfl
    | ⟨2, _⟩ => show 0 + 1 * k.val = k.val; omega
  show x0 _ * hot (x1 _) (x1 _) _ = _
  rw [eA, eB 0, eB 1]
  rfl

/-- THE OUTPUT BLOCK AFTER THE BODY is `blockSpec` of the two input blocks: the four slabs' rectangles tile the
    block, and under each the slab's payload is `blockSpec`. -/
theorem out_eq (x0 : Vec Ideal S1x256x512 .f32) (x1 : Vec Ideal S1x256x2 .i32) :
    out0_2 (F := Ideal) x0 x1 = blockSpec x0 x1 := by
  funext y
  unfold out0_2
  refine View.canon_apply_of_pieces (Val := Elt Ideal) (S := S1x256x16x512) (e := .f32) (blockSpec x0 x1) _ ?_ y
    (cover0_2 _ _ _ _ y)
  intro pc hpc x
  simp only [List.mem_cons, List.not_mem_nil, or_false] at hpc
  rcases hpc with rfl | rfl | rfl | rfl
  · exact slab_piece k0_pay4 pay4_apply x0 x1 192 inb_S1x256x512_S1x64x512_0_192_0 inb_S1x256x2_S1x64x2_0_192_0
      inb_S1x256x16x512_S1x64x16x512_0_192_0_0 x
  · exact slab_piece k0_pay3 pay3_apply x0 x1 128 inb_S1x256x512_S1x64x512_0_128_0 inb_S1x256x2_S1x64x2_0_128_0
      inb_S1x256x16x512_S1x64x16x512_0_128_0_0 x
  · exact slab_piece k0_pay2 pay2_apply x0 x1 64 inb_S1x256x512_S1x64x512_0_64_0 inb_S1x256x2_S1x64x2_0_64_0
      inb_S1x256x16x512_S1x64x16x512_0_64_0_0 x
  · exact slab_piece k0_pay1 pay1_apply x0 x1 0 inb_S1x256x512_S1x64x512_0_0_0 inb_S1x256x2_S1x64x2_0_0_0
      inb_S1x256x16x512_S1x64x16x512_0_0_0_0 x

variable (m : (ℓ : Loc nD τ sig) → Buf (Elt Ideal) ℓ) (ρ : Dev nD → PrngReg)

/-- The three index maps, decided over the 32 grid points: both input windows sit at the output window's block on
    the batch axis and on the token axis, and every window is at block 0 on its other axes. -/
theorem index_facts : ∀ t : Fin cfg0.N,
    win0_0.index t (0 : Fin 3) = win0_2.index t (0 : Fin 4) ∧ win0_0.index t (1 : Fin 3) = win0_2.index t (1 : Fin 4)
    ∧ win0_0.index t (2 : Fin 3) = 0
    ∧ win0_1.index t (0 : Fin 3) = win0_2.index t (0 : Fin 4) ∧ win0_1.index t (1 : Fin 3) = win0_2.index t (1 : Fin 4)
    ∧ win0_1.index t (2 : Fin 3) = 0
    ∧ win0_2.index t (2 : Fin 4) = 0 ∧ win0_2.index t (3 : Fin 4) = 0 :=
  (by decide +kernel : ∀ t : Fin grid0.N, _)

/-- Every (batch, group of 256 tokens) is some grid point's output block. -/
theorem index_onto : ∀ (q0 : Fin 4) (q1 : Fin 8), ∃ t : Fin cfg0.N, win0_2.index t = ![q0.val, q1.val, 0, 0] :=
  (by decide +kernel : ∀ (q0 : Fin 4) (q1 : Fin 8), ∃ t : Fin grid0.N, win0_2.index t = ![q0.val, q1.val, 0, 0])

/-- A block entry is the specification's entry at an index of the whole arrays whenever the block entry's row,
    index pair and partition are that index's. -/
theorem block_of_spec (X0 : (⟨3, ![4, 2048, 512]⟩ : Shape).Idx → EReal) (X1 : (⟨3, ![4, 2048, 2]⟩ : Shape).Idx → BitVec 32)
    (x0 : Vec Ideal S1x256x512 .f32) (x1 : Vec Ideal S1x256x2 .i32) (j : S1x256x16x512.Idx) (i : S4x2048x16x512.Idx)
    (h0 : x0 (ix3 (j 0) (j 1) (j 3)) = X0 (ix3 (i 0) (i 1) (i 3)))
    (h1 : ∀ k : Fin 2, x1 (ix3 (j 0) (j 1) k) = X1 (ix3 (i 0) (i 1) k))
    (hp : (i 2).val = (j 2).val) :
    blockSpec x0 x1 j = spec X0 X1 i := by
  unfold blockSpec spec
  rw [h0, h1 0, h1 1, hp]

/-- WHAT POINT `t` WRITES BACK is its block of the specification of the argument arrays as the region finds them. -/
theorem flushed_eq (c : Dev nD) (t : Fin cfg0.N) :
    (dats m 0 c).flushed 2 t
      = ((cfg0.win 2).blk t).view.read (Elt Ideal) (spec (V m c main_arg0) (V m c main_arg1)) := by
  rw [Value.flushed2, out_eq (iblk m c 0 t) (iblk m c 1 t)]
  obtain ⟨e00, e01, e02, e10, e11, e12, e22, e23⟩ := index_facts t
  funext j
  refine block_of_spec (V m c main_arg0) (V m c main_arg1) (iblk m c 0 t) (iblk m c 1 t) j
    (((cfg0.win 2).blk t).view.emb j) ?_ ?_ ?_
  · show V m c main_arg0 (((cfg0.win 0).blk t).view.emb _) = _
    refine congrArg (V m c main_arg0) (funext fun a => Fin.ext ?_)
    match a with
    | ⟨0, _⟩ => show win0_0.index t (0 : Fin 3) * 1 + 1 * (j 0).val = win0_2.index t (0 : Fin 4) * 1 + 1 * (j 0).val; omega
    | ⟨1, _⟩ => show win0_0.index t (1 : Fin 3) * 256 + 1 * (j 1).val = win0_2.index t (1 : Fin 4) * 256 + 1 * (j 1).val; omega
    | ⟨2, _⟩ => show win0_0.index t (2 : Fin 3) * 512 + 1 * (j 3).val = win0_2.index t (3 : Fin 4) * 512 + 1 * (j 3).val; omega
  · intro k
    show V m c main_arg1 (((cfg0.win 1).blk t).view.emb _) = _
    refine congrArg (V m c main_arg1) (funext fun a => Fin.ext ?_)
    match a with
    | ⟨0, _⟩ => show win0_1.index t (0 : Fin 3) * 1 + 1 * (j 0).val = win0_2.index t (0 : Fin 4) * 1 + 1 * (j 0).val; omega
    | ⟨1, _⟩ => show win0_1.index t (1 : Fin 3) * 256 + 1 * (j 1).val = win0_2.index t (1 : Fin 4) * 256 + 1 * (j 1).val; omega
    | ⟨2, _⟩ => show win0_1.index t (2 : Fin 3) * 2 + 1 * k.val = k.val; omega
  · show win0_2.index t (2 : Fin 4) * 16 + 1 * (j 2).val = (j 2).val
    omega

/-- An index of the result array is in point `t`'s block iff each coordinate is in the block's range on its axis. -/
theorem mem_blk (t : Fin cfg0.N) (i : S4x2048x16x512.Idx) :
    i ∈ ((cfg0.win 2).blk t).view.set ↔ ∀ a : Fin 4, win0_2.index t a * S1x256x16x512.size a ≤ (i a).val
      ∧ (i a).val < win0_2.index t a * S1x256x16x512.size a + S1x256x16x512.size a := by
  show i ∈ ((View.whole main_v0).slice (win0_2.rect t)).set ↔ _
  rw [View.set_slice_whole, Rect.mem_set_unit]
  exact Iff.rfl

/-- Every index of the result array is in some point's block: the block of its batch and of its token's group of
    256. -/
theorem cover (i : S4x2048x16x512.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 16 := (i 2).isLt
  have hi3 : (i 3).val < 512 := (i 3).isLt
  obtain ⟨t, ht⟩ := index_onto ⟨(i 0).val, hi0⟩ ⟨(i 1).val / 256, by omega⟩
  have q0 : win0_2.index t (0 : Fin 4) = (i 0).val := congrFun ht 0
  have q1 : win0_2.index t (1 : Fin 4) = (i 1).val / 256 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 16 ≤ (i 2).val ∧ (i 2).val < win0_2.index t (2 : Fin 4) * 16 + 16; omega
  | ⟨3, _⟩ => show win0_2.index t (3 : Fin 4) * 512 ≤ (i 3).val ∧ (i 3).val < win0_2.index t (3 : Fin 4) * 512 + 512; omega

/-- THE RESULT ARRAY after the run is the specification of the two argument arrays. -/
theorem final (c : Dev nD) :
    (dats m 0 c).arrAt 2 cfg0.N
      = spec (m ((c : Thread nD τ).loc main_arg0)) (m ((c : Thread nD τ).loc main_arg1)) :=
  (dats m 0 c).arrAt_eq_of_cover 2 (spec (V m c main_arg0) (V m c main_arg1)) (fun t _ => flushed_eq m c t) cover

/-- The kernel's run, read: every weakly fair execution terminates with the result array at the specification of
    the argument arrays and the arguments unchanged. -/
theorem run : θ_run defs (onTc (τ := τ) (main (F := Ideal))) ⟨m, fun _ => 0, ρ⟩ fun r => ∀ c : Dev nD,
      r.2.mem ((c : Thread nD τ).loc main_v0)
        = spec (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.ReferenceEntry.lean ====
/-
  The reference, entry by entry, is the specification.

  The reference builds the mask in the open: it compares each of a token's two indices with every partition number
  (a `[4, 2048, 2, 16]` array of bits), converts the bits to numbers, and takes the maximum over the axis of the
  two indices, starting from −∞.  At token (b, s) and partition p that maximum runs over two numbers, the
  converted bits "index k of the token equals p" for k = 0, 1 (`onehot_apply`, `mask_apply`), so it is the
  indicator of p being one of the two indices.  The input is broadcast over the partitions, the mask along the
  row, and the two are multiplied entry by entry (`reference_eq_spec`).
-/
import proofs.«104164_j87909390614955_2_alg».proof.Proof.Gen.ReferenceIdeal.Read
import proofs.«104164_j87909390614955_2_alg».proof.Proof.OneHotMask
import Idealize.ShloMosaic.PureOps.Reduce
import Idealize.ShloMosaic.PureOps.Ideal.Laws

noncomputable section

namespace Cert.ReferenceIdeal.Entry

open Cert.ReferenceIdeal Cert.ReferenceIdeal.Gen Cert.ReferenceIdeal.Read Idealize.ShloMosaic
open Idealize.ShloMosaic.ValueIdx Cert.ScatterMask

/-- The maximum is taken along axis 2, the axis of a token's two indices. -/
theorem reduces : S4x2048x2x16.Reduces [2] S4x2048x16 := by decide

/-- Result index (b, s, p) with k inserted on the reduced axis is (b, s, k, p). -/
theorem lift_apply (b : Fin 4) (s : Fin 2048) (p : Fin 16) (k : Fin 2) :
    reduces.lift (ix3 b s p) k = ix4 b s k p := by
  funext a
  apply Fin.ext
  match a with
  | ⟨0, _⟩ => rfl
  | ⟨1, _⟩ => rfl
  | ⟨2, _⟩ => rfl
  | ⟨3, _⟩ => rfl

/-- The one-hot array at (b, s, k, p): the bit "index k of token (b, s) equals p", as a number. -/
theorem onehot_apply (idx : (⟨S4x2048x2, .i32⟩ : BufTy).Contents (Elt Ideal)) (b : Fin 4) (s : Fin 2048) (k : Fin 2)
    (p : Fin 16) :
    val_main_v0 (F := Ideal) idx (ix4 b s k p)
      = ((((IntOp.cmpi .eq (idx (ix3 b s k)) (BitVec.ofNat 32 p.val)).toNat : ℝ)) : EReal) := by
  rw [val_main_v0_apply, val_main_call0_v4_apply, val_main_call0_v2_apply, val_main_call0_v0_apply,
    val_main_call0_v3_apply, val_main_call0_v1_apply]
  have e : idx_main_call0_v0 (idx_main_call0_v2 (ix4 b s k p)) = ix3 b s k :=
    funext fun a => by match a with | ⟨0, _⟩ => rfl | ⟨1, _⟩ => rfl | ⟨2, _⟩ => rfl
  rw [e]
  rfl

/-- −∞, the starting value of the maximum, is the bottom of the extended reals. -/
theorem neg_inf : Ideal.ofBits .f32 0xFF800000#32 = (⊥ : EReal) := by simp [Ideal.ofBits, Ideal.ieee]

/-- The mask at (b, s, p): the indicator of p being one of token (b, s)'s two indices. -/
theorem mask_apply (idx : (⟨S4x2048x2, .i32⟩ : BufTy).Contents (Elt Ideal)) (b : Fin 4) (s : Fin 2048) (p : Fin 16) :
    val_main_v1 (F := Ideal) idx (ix3 b s p) = hot (idx (ix3 b s (0 : Fin 2))) (idx (ix3 b s (1 : Fin 2))) p.val := by
  unfold val_main_v1
  refine (Host.reduce_eq_fold_single (α := Ideal .f32) (FloatOps.maximumf (F := Ideal) (φ := .f32))
    (val_main_v0 (F := Ideal) idx) (val_main_cst (F := Ideal))
    reducesTo_S4x2048x2x16_S4x2048x16_d2 reduces h_S_ (ix3 b s p)).trans ?_
  refine (fold_two _ _ _).trans ?_
  show max (val_main_v0 (F := Ideal) idx (reduces.lift (ix3 b s p) (0 : Fin 2)))
      (max (val_main_v0 (F := Ideal) idx (reduces.lift (ix3 b s p) (1 : Fin 2))) (Ideal.ofBits .f32 0xFF800000#32)) = _
  rw [lift_apply, lift_apply, onehot_apply, onehot_apply, neg_inf, max_of_bits]
  exact hot_of_bits _ _ _

/-- THE REFERENCE'S RESULT IS THE SPECIFICATION of its two argument arrays. -/
theorem reference_eq_spec (x : (⟨S4x2048x512, .f32⟩ : BufTy).Contents (Elt Ideal))
    (idx : (⟨S4x2048x2, .i32⟩ : BufTy).Contents (Elt Ideal)) :
    val_main_v6 (F := Ideal) x idx = spec x idx := by
  funext i
  obtain ⟨b, s, p, d, rfl⟩ : ∃ (b : Fin 4) (s : Fin 2048) (p : Fin 16) (d : Fin 512), i = ix4 b s p d :=
    ⟨i 0, i 1, i 2, i 3, eq_ix4 i⟩
  rw [val_main_v6_apply, val_main_v4_apply, val_main_v2_apply, val_main_v5_apply, val_main_v3_apply]
  have e1 : idx_main_v2 (idx_main_v4 (ix4 b s p d)) = ix3 b s d :=
    funext fun a => by match a with | ⟨0, _⟩ => rfl | ⟨1, _⟩ => rfl | ⟨2, _⟩ => rfl
  have e2 : idx_main_v3 (idx_main_v5 (ix4 b s p d)) = ix3 b s p :=
    funext fun a => by match a with | ⟨0, _⟩ => rfl | ⟨1, _⟩ => rfl | ⟨2, _⟩ => rfl
  rw [e1, e2, mask_apply]
  rfl

end Cert.ReferenceIdeal.Entry

end
-- ==== Proof.lean ====
/-
  A two-way scatter mask applied to a replicated input: the kernel against its reference, on the extended reals.

  The inputs are x : [4, 2048, 512] and, for every token (b, s), two partition indices idx (b, s, 0) and idx (b, s, 1)
  as 32-bit words.  The result is [4, 2048, 16, 512]:

      out (b, s, p, d) = x (b, s, d) · m (b, s, p),     m (b, s, p) = 1 if p is one of the token's two indices, else 0.

  The kernel works block by block (256 tokens of one batch per grid point, in four slabs of 64): it compares an iota
  along the partition axis with each index column, joins the two comparison bits by "or", converts the bit to a number
  and multiplies the rows, broadcast over the partitions, by it.  The reference builds the one-hot array of both
  indices, converts it to numbers, takes the maximum over the two indices from −∞, and multiplies the broadcast input by
  the broadcast mask.  On the extended reals both masks are the indicator m — a bit read as a number is 0 or 1, and the
  maximum of two such numbers from −∞ is 1 exactly when one of them is —, and both programs multiply the same entry of x
  by it, so the results agree entry by entry; no finiteness of x is used.

  The modules: OneHotMask (the indicator, the specification `spec`, the two spellings of the mask), SlabEntry (one slab
  of the kernel's block at an entry), BlockToArray (the block as one function of the input blocks; what each grid point
  writes back; the blocks tile the result; the kernel's run read as `spec`), ReferenceEntry (the reference's result is
  `spec`).  The three frame claims are the generated frames (the reference's is its generated run with the result
  dropped); the idealization rewrote nothing, so `preserves` is trivial.
-/
import proofs.«104164_j87909390614955_2_alg».proof.Defs
import proofs.«104164_j87909390614955_2_alg».proof.Proof.Gen.Kernel
import proofs.«104164_j87909390614955_2_alg».proof.Proof.Gen.Kernel.Skeleton
import proofs.«104164_j87909390614955_2_alg».proof.Proof.Gen.Kernel.Launch
import proofs.«104164_j87909390614955_2_alg».proof.Proof.Gen.Kernel.Points
import proofs.«104164_j87909390614955_2_alg».proof.Proof.Gen.Kernel.Frame
import proofs.«104164_j87909390614955_2_alg».proof.Proof.Gen.KernelIdeal
import proofs.«104164_j87909390614955_2_alg».proof.Proof.Gen.KernelIdeal.Skeleton
import proofs.«104164_j87909390614955_2_alg».proof.Proof.Gen.KernelIdeal.Launch
import proofs.«104164_j87909390614955_2_alg».proof.Proof.Gen.KernelIdeal.Points
import proofs.«104164_j87909390614955_2_alg».proof.Proof.Gen.KernelIdeal.Frame
import proofs.«104164_j87909390614955_2_alg».proof.Proof.Gen.ReferenceIdeal
import proofs.«104164_j87909390614955_2_alg».proof.Proof.Gen.Pre_finite_inputs
import proofs.«104164_j87909390614955_2_alg».proof.Proof.Gen.KernelIdeal.Value
import proofs.«104164_j87909390614955_2_alg».proof.Proof.Gen.ReferenceIdeal.Run
import proofs.«104164_j87909390614955_2_alg».proof.Proof.Gen.ReferenceIdeal.Read
import proofs.«104164_j87909390614955_2_alg».proof.Proof.OneHotMask
import proofs.«104164_j87909390614955_2_alg».proof.Proof.SlabEntry
import proofs.«104164_j87909390614955_2_alg».proof.Proof.BlockToArray
import proofs.«104164_j87909390614955_2_alg».proof.Proof.ReferenceEntry
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and idx both programs end with the result array at `spec x idx`: the kernel by
    its blocks (BlockToArray), the reference operation by operation (ReferenceEntry). -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.Entry.reference_eq_spec,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
